-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x8 .f32) (main_arg5 : FVec F S8 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg4
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S1700000x128 : Shape := ⟨2, ![1700000, 128]⟩
abbrev S1x128 : Shape := ⟨2, ![1, 128]⟩
abbrev S1x8 : Shape := ⟨2, ![1, 8]⟩
abbrev S100000x8 : Shape := ⟨2, ![100000, 8]⟩
abbrev S2000x8 : Shape := ⟨2, ![2000, 8]⟩

abbrev nBuf : Space → Nat
  | .hbm => 50
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S1x8, .f32⟩
  | .hbm, ⟨49, _⟩ => ⟨S100000x8, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x8, .f32⟩
  | .local _ .vmem, ⟨10, _⟩ => ⟨S1x8, .f32⟩
  | .local _ .vmem, ⟨11, _⟩ => ⟨S2000x8, .f32⟩
  | .local _ .vmem, ⟨12, _⟩ => ⟨S2000x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S8_S1x8 : S8.ShapeCasts S1x8
  shapeCasts_S2000x128_S2000x128 : S2000x128.ShapeCasts S2000x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  scatter_S100000_S1700000x1_S1700000_n_0_0_1_wf : ScatterDims.WF S100000 S1700000x1 S1700000 [] [0] [0] 1
  dot_S2000x256_S256x128_S2000x128_1_0_0_1_n_n_wf : DotDims.WF S2000x256 S256x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x8_S2000x8_1_0_0_1_n_n_wf : DotDims.WF S2000x128 S128x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x8.size a ≤ S128x8.size a
  hwx1_1 : ∀ i : grid1.Coords, EltTy.bits .f32 = 32 ∨ (Rect.block (s := S128x8) S128x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8.size a ≤ S1x8.size a
  hwx1_2 : ∀ i : grid1.Coords, EltTy.bits .f32 = 32 ∨ (Rect.block (s := S1x8) S1x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x8.size a ≤ S100000x8.size a
  hwx1_3 : ∀ i : grid1.Coords, EltTy.bits .f32 = 32 ∨ (Rect.block (s := S100000x8) S2000x8.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x8 : Shape := ⟨2, ![100000, 8]⟩
abbrev S1x8 : Shape := ⟨2, ![1, 8]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x8, .f32⟩
  | .hbm, ⟨5, _⟩ => ⟨S8, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x8, .f32⟩
  | .hbm, ⟨67, _⟩ => ⟨S1x8, .f32⟩
  | .hbm, ⟨68, _⟩ => ⟨S100000x8, .f32⟩
  | .hbm, ⟨69, _⟩ => ⟨S100000x8, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x8_S100000x8_1_0_0_1_n_n_wf : DotDims.WF S100000x128 S128x8 S100000x8 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.Pay.lean ====
/-
  The two kernel bodies' stored values read at one entry of the block.
  First body: entry (r, k) of the stored block is the row r of the loaded feature block against column k of the
  weights, summed over the 256 contracted coordinates, times the r-th entry of the loaded scale column.
  Second body: entry (r, c) is row r of the loaded block against column c of the weights, summed over the 128
  contracted coordinates, plus the c-th entry of the loaded bias row.
  A change of float format is the identity on extended reals, and a matrix product into a zero accumulator is the
  plain sum of products.
-/
import proofs.«135299_j19928648253615_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The operand indices of the two products, coordinate by coordinate -/

theorem mm0_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem mm0_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem mm0_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem mm0_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl
theorem mm1_lhs_0 (i : S2000x8.Idx) (q : dot_S2000x128_S128x8_S2000x8_1_0_0_1_n_n.contr.Idx) :
    (dot_S2000x128_S128x8_S2000x8_1_0_0_1_n_n.lhsIdx i q 0).val = (i 0).val := by
  unfold DotDims.lhsIdx
  rw [dif_neg (show ¬(0 : Fin S2000x128.rank) ∈ dot_S2000x128_S128x8_S2000x8_1_0_0_1_n_n.lhsBatch by decide), dif_pos (show (0 : Fin S2000x128.rank) ∈ dot_S2000x128_S128x8_S2000x8_1_0_0_1_n_n.lhsNonContracting by decide)]
  rfl
theorem mm1_lhs_1 (i : S2000x8.Idx) (q : dot_S2000x128_S128x8_S2000x8_1_0_0_1_n_n.contr.Idx) :
    (dot_S2000x128_S128x8_S2000x8_1_0_0_1_n_n.lhsIdx i q 1).val = (q ⟨0, by decide⟩).val :=
  dot_S2000x128_S128x8_S2000x8_1_0_0_1_n_n.lhsIdx_val_of_single rfl i q
theorem mm1_rhs_0 (i : S2000x8.Idx) (q : dot_S2000x128_S128x8_S2000x8_1_0_0_1_n_n.contr.Idx) :
    (dot_S2000x128_S128x8_S2000x8_1_0_0_1_n_n.rhsIdx i q 0).val = (q ⟨0, by decide⟩).val :=
  dot_S2000x128_S128x8_S2000x8_1_0_0_1_n_n.rhsIdx_val_of_single rfl i q
theorem mm1_rhs_1 (i : S2000x8.Idx) (q : dot_S2000x128_S128x8_S2000x8_1_0_0_1_n_n.contr.Idx) :
    (dot_S2000x128_S128x8_S2000x8_1_0_0_1_n_n.rhsIdx i q 1).val = (i 1).val := by
  unfold DotDims.rhsIdx
  rw [dif_neg (show ¬(1 : Fin S128x8.rank) ∈ dot_S2000x128_S128x8_S2000x8_1_0_0_1_n_n.rhsBatch by decide), dif_pos (show (1 : Fin S128x8.rank) ∈ dot_S2000x128_S128x8_S2000x8_1_0_0_1_n_n.rhsNonContracting by decide)]
  rfl

/-! ## The products at an entry -/

/-- The tiled matrix product into a zero accumulator, read at entry (r, c): the sum over the contracted coordinate. -/
theorem mm0_apply (a : FVec Ideal S2000x256 .bf16) (b : FVec Ideal S256x128 .bf16) (r : Fin 2000) (c : Fin 128) :
    matmul (F := Ideal) dot_S2000x256_S256x128_S2000x128_1_0_0_1_n_n none a b (constant S2000x128 .f32 0x00000000#32) (ix2 r c)
      = ∑ k : Fin 256, a (ix2 r k) * b (ix2 k c) := by
  refine (Ideal.matmul_constant_zero_apply dot_S2000x256_S256x128_S2000x128_1_0_0_1_n_n none a b (ix2 r c)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 r c) ((contrEquiv1 dot_S2000x256_S256x128_S2000x128_1_0_0_1_n_n 256 rfl rfl).symm k) = ix2 r k := funext fun x => Fin.ext (by
    match x with
    | ⟨0, _⟩ => exact mm0_lhs_0 _ _
    | ⟨1, _⟩ => exact (mm0_lhs_1 _ _).trans hk)
  have er : dot_S2000x256_S256x128_S2000x128_1_0_0_1_n_n.rhsIdx (ix2 r c) ((contrEquiv1 dot_S2000x256_S256x128_S2000x128_1_0_0_1_n_n 256 rfl rfl).symm k) = ix2 k c := funext fun x => Fin.ext (by
    match x with
    | ⟨0, _⟩ => exact (mm0_rhs_0 _ _).trans hk
    | ⟨1, _⟩ => exact mm0_rhs_1 _ _)
  rw [el, er]

/-- The tiled matrix product into a zero accumulator, read at entry (r, c): the sum over the contracted coordinate. -/
theorem mm1_apply (a : FVec Ideal S2000x128 .bf16) (b : FVec Ideal S128x8 .bf16) (r : Fin 2000) (c : Fin 8) :
    matmul (F := Ideal) dot_S2000x128_S128x8_S2000x8_1_0_0_1_n_n none a b (constant S2000x8 .f32 0x00000000#32) (ix2 r c)
      = ∑ k : Fin 128, a (ix2 r k) * b (ix2 k c) := by
  refine (Ideal.matmul_constant_zero_apply dot_S2000x128_S128x8_S2000x8_1_0_0_1_n_n none a b (ix2 r c)).trans ?_
  rw [← Equiv.sum_comp (contrEquiv1 dot_S2000x128_S128x8_S2000x8_1_0_0_1_n_n 128 rfl rfl).symm]
  refine Finset.sum_congr rfl fun k _ => ?_
  have hk := contrEquiv1_symm_val dot_S2000x128_S128x8_S2000x8_1_0_0_1_n_n 128 rfl rfl k
  have el : dot_S2000x128_S128x8_S2000x8_1_0_0_1_n_n.lhsIdx (ix2 r c) ((contrEquiv1 dot_S2000x128_S128x8_S2000x8_1_0_0_1_n_n 128 rfl rfl).symm k) = ix2 r k := funext fun x => Fin.ext (by
    match x with
    | ⟨0, _⟩ => exact mm1_lhs_0 _ _
    | ⟨1, _⟩ => exact (mm1_lhs_1 _ _).trans hk)
  have er : dot_S2000x128_S128x8_S2000x8_1_0_0_1_n_n.rhsIdx (ix2 r c) ((contrEquiv1 dot_S2000x128_S128x8_S2000x8_1_0_0_1_n_n 128 rfl rfl).symm k) = ix2 k c := funext fun x => Fin.ext (by
    match x with
    | ⟨0, _⟩ => exact (mm1_rhs_0 _ _).trans hk
    | ⟨1, _⟩ => exact mm1_rhs_1 _ _)
  rw [el, er]

/-! ## The stored values at an entry -/

/-- First body: (row r of x0) · (column k of x1), times the scale x2[r, 0]. -/
theorem pay0_apply (x0 : Vec Ideal S2000x256 .f32) (x1 : Vec Ideal S256x128 .f32) (x2 : Vec Ideal S2000x1 .f32)
    (r : Fin 2000) (k : Fin 128) :
    k0_pay1 x0 x1 x2 (ix2 r k) = (∑ j : Fin 256, x0 (ix2 r j) * x1 (ix2 j k)) * x2 (ix2 r 0) := by
  unfold k0_pay1
  refine congrArg₂ (fun a b : EReal => a * b) (mm0_apply _ _ r k) ?_
  refine (broadcastTo_apply _ _ (ix2 r k) (ix2 r 0) (fun a => match a with
      | ⟨0, _⟩ => by show r.val = if (2000 : Nat) = 1 then 0 else r.val; rw [if_neg (by decide)]
      | ⟨1, _⟩ => by show 0 = if (1 : Nat) = 1 then 0 else k.val; rw [if_pos rfl])).trans ?_
  exact congrFun (shapeCast_self x2 _) (ix2 r 0)

/-- Second body: (row r of x0) · (column c of x1), plus the bias x2[0, c]. -/
theorem pay1_apply (x0 : Vec Ideal S2000x128 .f32) (x1 : Vec Ideal S128x8 .f32) (x2 : Vec Ideal S1x8 .f32)
    (r : Fin 2000) (c : Fin 8) :
    k1_pay1 x0 x1 x2 (ix2 r c) = (∑ k : Fin 128, x0 (ix2 r k) * x1 (ix2 k c)) + x2 (ix2 0 c) := by
  unfold k1_pay1
  refine congrArg₂ (fun a b : EReal => a + b) ((mm1_apply _ _ r c).trans ?_) ?_
  · refine Finset.sum_congr rfl fun k _ => ?_
    exact congrArg (· * x1 (ix2 k c)) (congrFun (shapeCast_self x0 _) (ix2 r k))
  · refine (broadcastTo_apply _ _ (ix2 r c) (ix2 0 c) (fun a => match a with
        | ⟨0, _⟩ => by show 0 = if (1 : Nat) = 1 then 0 else r.val; rw [if_pos rfl]
        | ⟨1, _⟩ => by show c.val = if (8 : Nat) = 1 then 0 else c.val; rw [if_neg (by decide)])).trans ?_
    exact congrFun (shapeCast_self x2 _) (ix2 0 c)

end Cert.KernelIdeal.Pay

end
-- ==== Proof.Spec.lean ====
/-
  The two dense stages of the layer as whole-array functions on the extended reals, index by index.
  `feat x w` is the feature product: entry (i, k) is the sum over j of x[i, j] · w[j, k].
  `classify a w b` is the output stage: entry (i, c) is the sum over k of a[i, k] · w[k, c], plus b[c].
  Both programs are compared through these two functions: each tiled matrix product of the kernel and each
  whole matrix product of the reference is one of them at every index.
-/
import Idealize.ShloMosaic.PureOps.Ideal
import Idealize.ShloMosaic.Lib.ValueIdx

noncomputable section

open scoped BigOperators

namespace Cert.Gcn

open Idealize.ShloMosaic Idealize.ShloMosaic.ValueIdx

/-- Entry (i, k) of the feature product: the sum over j of x[i, j] · w[j, k]. -/
def feat (x : (⟨2, ![100000, 256]⟩ : Shape).Idx → EReal) (w : (⟨2, ![256, 128]⟩ : Shape).Idx → EReal) :
    (⟨2, ![100000, 128]⟩ : Shape).Idx → EReal :=
  fun p => ∑ j : Fin 256, x (ix2 (p 0) j) * w (ix2 j (p 1))

/-- Entry (i, c) of the output stage: the sum over k of a[i, k] · w[k, c], plus b[c]. -/
def classify (a : (⟨2, ![100000, 128]⟩ : Shape).Idx → EReal) (w : (⟨2, ![128, 8]⟩ : Shape).Idx → EReal)
    (b : (⟨1, ![8]⟩ : Shape).Idx → EReal) : (⟨2, ![100000, 8]⟩ : Shape).Idx → EReal :=
  fun q => (∑ k : Fin 128, a (ix2 (q 0) k) * w (ix2 k (q 1))) + b (ix1 (q 1))

end Cert.Gcn

end
-- ==== Proof.Blocks0.lean ====
/-
  The first tiled region's result array as ONE function of the arrays the region is entered with.
  The region walks 50 points; at point t it loads rows 2000·t … 2000·t + 1999 of the features, the whole weight matrix
  and rows 2000·t … 2000·t + 1999 of the scale column, and writes back rows 2000·t … 2000·t + 1999 of the result. What
  point t writes back is the matching block of: the feature product `feat`, each row i scaled by the column's entry
  (i, 0). A block's entry sits at block index times block size plus its coordinate inside the block; the 50 blocks
  cover the result array (row r lies in the block of point r / 2000).
-/
import proofs.«135299_j19928648253615_1_alg».proof.Proof.Gen.KernelIdeal.Frame
import proofs.«135299_j19928648253615_1_alg».proof.Proof.Pay
import proofs.«135299_j19928648253615_1_alg».proof.Proof.Spec
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The result array the region leaves: the feature product, row i scaled by the scale column's entry (i, 0). -/
def result (c : Dev nD) : S100000x128.Idx → EReal :=
  fun p => Cert.Gcn.feat (V c main_arg0) (V c main_arg2) p * V c main_v15 (ix2 (p 0) 0)

/-- The printed index maps, decided over the 50 points: the features', the scale column's and the result's blocks are
    block t along the rows, every other block index is 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One entry of the stored block, at an index of the block. -/
theorem entry (x0 : Vec Ideal S2000x256 .f32) (x1 : Vec Ideal S256x128 .f32) (x2 : Vec Ideal S2000x1 .f32) (j : S2000x128.Idx) :
    k0_pay1 x0 x1 x2 j = (∑ k : Fin 256, x0 (ix2 (j 0) k) * x1 (ix2 k (j 1))) * x2 (ix2 (j 0) 0) := by
  obtain ⟨r, q, rfl⟩ : ∃ (r : Fin 2000) (q : Fin 128), j = ix2 r q := ⟨j 0, j 1, eq_ix2 j⟩
  exact Pay.pay0_apply x0 x1 x2 r q

/-- A window's block at a point is its array read through the block's rectangle. -/
theorem read0 (c : Dev nD) (t : Fin cfg0.N) (y : S2000x256.Idx) :
    iblk0 V c 0 t y = V c main_arg0 (((cfg0.win 0).blk t).view.emb y) := rfl
theorem read1 (c : Dev nD) (t : Fin cfg0.N) (y : S256x128.Idx) :
    iblk0 V c 1 t y = V c main_arg2 (((cfg0.win 1).blk t).view.emb y) := rfl
theorem read2 (c : Dev nD) (t : Fin cfg0.N) (y : S2000x1.Idx) :
    iblk0 V c 2 t y = V c main_v15 (((cfg0.win 2).blk t).view.emb y) := rfl

/-- WHAT POINT t WRITES BACK is block t of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero origin]
  simp only [View.ld_unit_zero (S := S2000x256) origin, View.ld_unit_zero (S := S256x128) origin, View.ld_unit_zero (S := S2000x1) origin]
  obtain ⟨e0, e1, e2, e3, e4, e5, e6, e7⟩ := index_facts t
  funext j
  refine (entry (iblk0 V c 0 t) (iblk0 V c 1 t) (iblk0 V c 2 t) j).trans ?_
  have hj0 : (j 0).val < 2000 := (j 0).isLt
  have hj1 : (j 1).val < 128 := (j 1).isLt
  have h0 : ∀ k : Fin 256, ((cfg0.win 0).blk t).view.emb (ix2 (j 0) k) = ix2 ((((cfg0.win 3).blk t).view.emb j) 0) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  have h1 : ∀ k : Fin 256, ((cfg0.win 1).blk t).view.emb (ix2 k (j 1)) = ix2 k ((((cfg0.win 3).blk t).view.emb j) 1) := fun k => by
    funext a; apply Fin.ext
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (n0 := 2000) (n1 := 1) (j 0) 0) = ix2 (n0 := 100000) (n1 := 1) ((((cfg0.win 3).blk t).view.emb j) 0) 0 := by
    funext a; apply Fin.ext
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 1 + 1 * 0 = 0; omega
  refine congrArg₂ (fun a b : EReal => a * b) (Finset.sum_congr rfl fun k _ => congrArg₂ (fun a b : EReal => a * b) ?_ ?_) ?_
  · exact (read0 V c t _).trans (congrArg (V c main_arg0) (h0 k))
  · exact (read1 V c t _).trans (congrArg (V c main_arg2) (h1 k))
  · exact (read2 V c t _).trans (congrArg (V c main_v15) h2)

/-- An index of the result array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Every index of the result array lies in some point's block: row r in the block of point r / 2000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  let t : Fin cfg0.N := ⟨(i 0).val / 2000, by show (i 0).val / 2000 < grid0.N; omega⟩
  have ht : t.val = (i 0).val / 2000 := rfl
  obtain ⟨e0, e1, e2, e3, e4, e5, e6, e7⟩ := index_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE RESULT ARRAY after the region: the scaled feature product of the arrays the region is entered with. -/
theorem final (c : Dev nD) : (dat0 V c).arrAt 3 cfg0.N = result V c :=
  (dat0 V c).arrAt_eq_of_cover 3 (result V c) (fun t _ => flushed_eq V c t) (cover)

end Cert.KernelIdeal.Blocks0

end
-- ==== Proof.Blocks1.lean ====
/-
  The second tiled region's result array as ONE function of the arrays the region is entered with.
  The region walks 50 points; at point t it loads rows 2000·t … 2000·t + 1999 of its first operand, the whole weight
  matrix and the whole bias row, and writes back rows 2000·t … 2000·t + 1999 of the result. What point t writes back is
  the matching block of the output stage `classify` of the whole arrays: a block's entry sits at block index times block
  size plus its coordinate inside the block, and the input blocks move with the output block along the rows. The 50
  blocks cover the result array (row r lies in the block of point r / 2000), so the array ends at `classify`.
-/
import proofs.«135299_j19928648253615_1_alg».proof.Proof.Gen.KernelIdeal.Frame
import proofs.«135299_j19928648253615_1_alg».proof.Proof.Pay
import proofs.«135299_j19928648253615_1_alg».proof.Proof.Spec
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The result array the region leaves: the output stage of the first operand's array, the weights and the bias row
    (the bias arrives as a 1 × 8 array; entry c of the bias is its entry (0, c)). -/
def result (c : Dev nD) : S100000x8.Idx → EReal :=
  Cert.Gcn.classify (V c main_v32) (V c main_arg4) (fun b => V c main_v33 (ix2 0 (b 0)))

/-- The printed index maps, decided over the 50 points: the first operand's block and the result's block are block t
    along the rows, every other block index is 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of the stored block, at an index of the block. -/
theorem entry (x0 : Vec Ideal S2000x128 .f32) (x1 : Vec Ideal S128x8 .f32) (x2 : Vec Ideal S1x8 .f32) (j : S2000x8.Idx) :
    k1_pay1 x0 x1 x2 j = (∑ k : Fin 128, x0 (ix2 (j 0) k) * x1 (ix2 k (j 1))) + x2 (ix2 0 (j 1)) := by
  obtain ⟨r, q, rfl⟩ : ∃ (r : Fin 2000) (q : Fin 8), j = ix2 r q := ⟨j 0, j 1, eq_ix2 j⟩
  exact Pay.pay1_apply x0 x1 x2 r q

/-- A window's block at a point is its array read through the block's rectangle. -/
theorem read0 (c : Dev nD) (t : Fin cfg1.N) (y : S2000x128.Idx) :
    iblk1 V c 0 t y = V c main_v32 (((cfg1.win 0).blk t).view.emb y) := rfl
theorem read1 (c : Dev nD) (t : Fin cfg1.N) (y : S128x8.Idx) :
    iblk1 V c 1 t y = V c main_arg4 (((cfg1.win 1).blk t).view.emb y) := rfl
theorem read2 (c : Dev nD) (t : Fin cfg1.N) (y : S1x8.Idx) :
    iblk1 V c 2 t y = V c main_v33 (((cfg1.win 2).blk t).view.emb y) := rfl

/-- WHAT POINT t WRITES BACK is block t of `result`. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero origin]
  simp only [View.ld_unit_zero (S := S2000x128) origin, View.ld_unit_zero (S := S128x8) origin, View.ld_unit_zero (S := S1x8) origin]
  obtain ⟨e0, e1, e2, e3, e4, e5, e6, e7⟩ := index_facts t
  funext j
  refine (entry (iblk1 V c 0 t) (iblk1 V c 1 t) (iblk1 V c 2 t) j).trans ?_
  have hj0 : (j 0).val < 2000 := (j 0).isLt
  have hj1 : (j 1).val < 8 := (j 1).isLt
  have h0 : ∀ k : Fin 128, ((cfg1.win 0).blk t).view.emb (ix2 (j 0) k) = ix2 ((((cfg1.win 3).blk t).view.emb j) 0) k := fun k => by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  have h1 : ∀ k : Fin 128, ((cfg1.win 1).blk t).view.emb (ix2 k (j 1)) = ix2 k ((((cfg1.win 3).blk t).view.emb j) 1) := fun k => by
    funext a; apply Fin.ext
    match a with
    | ⟨0, _⟩ => show win1_1.index t (0 : Fin 2) * 128 + 1 * k.val = k.val; omega
    | ⟨1, _⟩ => show win1_1.index t (1 : Fin 2) * 8 + 1 * (j 1).val = win1_3.index t (1 : Fin 2) * 8 + 1 * (j 1).val; omega
  have h2 : ((cfg1.win 2).blk t).view.emb (ix2 0 (j 1)) = ix2 0 ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 8 + 1 * (j 1).val = win1_3.index t (1 : Fin 2) * 8 + 1 * (j 1).val; omega
  refine congrArg₂ (fun a b : EReal => a + b) (Finset.sum_congr rfl fun k _ => congrArg₂ (fun a b : EReal => a * b) ?_ ?_) ?_
  · exact (read0 V c t _).trans (congrArg (V c main_v32) (h0 k))
  · exact (read1 V c t _).trans (congrArg (V c main_arg4) (h1 k))
  · exact (read2 V c t _).trans (congrArg (V c main_v33) h2)

/-- An index of the result array is in point t's block iff each coordinate is in the block's range on its axis. -/
theorem mem_blk (t : Fin cfg1.N) (i : S100000x8.Idx) :
    i ∈ ((cfg1.win 3).blk t).view.set ↔ ∀ a : Fin 2, win1_3.index t a * S2000x8.size a ≤ (i a).val ∧ (i a).val < win1_3.index t a * S2000x8.size a + S2000x8.size a := by
  show i ∈ ((View.whole main_v34).slice (win1_3.rect t)).set ↔ _
  rw [View.set_slice_whole, Rect.mem_set_unit]
  exact Iff.rfl

/-- Every index of the result array lies in some point's block: row r in the block of point r / 2000. -/
theorem cover (i : S100000x8.Idx) : ∃ t : Fin cfg1.N, (cfg1.win 3).flush t = true ∧ i ∈ ((cfg1.win 3).blk t).view.set := by
  have hi0 : (i 0).val < 100000 := (i 0).isLt
  have hi1 : (i 1).val < 8 := (i 1).isLt
  have hN : grid1.N = 50 := N_1
  let t : Fin cfg1.N := ⟨(i 0).val / 2000, by show (i 0).val / 2000 < grid1.N; omega⟩
  have ht : t.val = (i 0).val / 2000 := rfl
  obtain ⟨e0, e1, e2, e3, e4, e5, e6, e7⟩ := index_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 8 ≤ (i 1).val ∧ (i 1).val < win1_3.index t (1 : Fin 2) * 8 + 8; omega

/-- THE RESULT ARRAY after the region: the output stage of the arrays the region is entered with. -/
theorem final (c : Dev nD) : (dat1 V c).arrAt 3 cfg1.N = result V c :=
  (dat1 V c).arrAt_eq_of_cover 3 (result V c) (fun t _ => flushed_eq V c t) (cover)

end Cert.KernelIdeal.Blocks1

end
-- ==== Proof.KHost.lean ====
/-
  What the host operations around the two tiled regions compute, as functions of the launch contents.
  Before the first region: the edge list's sources and destinations (the two rows of the edge array, each followed by
  the self-loops 0 … 99999), the in-degree of every node (a scatter-add of ones over the destinations), and the
  normalising factor of every node (the inverse square root of the degree where the degree is positive, else 0),
  reshaped to a column for the region.
  Between the regions: the rows of the first region's result gathered at the (wrapped) sources, summed into the
  destinations by a scatter-add, scaled row by row with the normalising factor, plus the bias row.
  Each buffer's contents at a boundary are read off the fold of the operations before it.
-/
import proofs.«135299_j19928648253615_1_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

/-- The edges' sources: row 0 of the edge array, then the self-loops. -/
def srcIdx (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' destinations: row 1 of the edge array, then the self-loops. -/
def dstIdx (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- An index wrapped as array indexing wraps it: v + 100000 where v is negative, else v. -/
def wrap (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The in-degree of every node: ones summed into the destinations. -/
def deg (dst : IVec S1700000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- The normalising factor: the inverse square root of the degree where it is positive, else 0. -/
def dinv (dst : IVec S1700000 32) : FVec Ideal S100000 .f32 :=
  select (cmpf .ogt (deg dst) (broadcastInDim S100000 ![] bcast_S_S100000 (constant S_ .f32 0x00000000#32))) (Host.rsqrt (deg dst)) (broadcastInDim S100000 ![] bcast_S_S100000 (id (constant S_ .f32 0x00000000#32)))

/-- The operations between the regions: gather the rows of g at the wrapped sources, sum them into the destinations,
    scale row i by dv[i], add the bias row. -/
def mid (g : FVec Ideal S100000x128 .f32) (src dst : IVec S1700000 32) (dv : FVec Ideal S100000 .f32) (b1 : FVec Ideal S128 .f32) :
    FVec Ideal S100000x128 .f32 :=
  addf (mulf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (Host.gather gather_S100000x128_S1700000x1_S1700000x128_1_0_n_n_0_1_1128 g (broadcastInDim S1700000x1 ![0] bcast_S1700000_S1700000x1_0 (wrap src)))) (broadcastInDim S100000x128 ![0, 1] bcast_S100000x1_S100000x128_0_1 (broadcastInDim S100000x1 ![0] bcast_S100000_S100000x1_0 dv))) (broadcastInDim S100000x128 ![0, 1] bcast_S1x128_S100000x128_0_1 (broadcastInDim S1x128 ![1] bcast_S128_S1x128_1 b1))

/-! ### The first stretch in two halves: the index lists, then the degree and what is computed from it -/

section Halves
variable {F : FTy → Type} [FloatOps F]

/-- The operations that build the two index lists, -/
abbrev opsA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- and the rest of the stretch: the degree, its comparison with zero, its inverse square root. -/
abbrev opsB : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

theorem stretch0_split (V : Valuation τ sig (Elt F)) :
    StableHlo.after (hostOps0 (F := F)) V = StableHlo.after opsB (StableHlo.after opsA V) := rfl

end Halves

variable (m : (ℓ : Loc nD τ sig) → Buf (Elt Ideal) ℓ) (ρ : Dev nD → PrngReg)

/-! ## The first region's entry contents -/

theorem entry0_src (c : Dev nD) : W3 m ρ c (Proc.devRef .tc main_v3) = srcIdx (m ((c : Thread nD τ).loc main_arg1)) := by
  show StableHlo.after hostOps0_2 (StableHlo.after hostOps0_1 (StableHlo.after hostOps0 (W0 m ρ c))) (Proc.devRef .tc main_v3) = _
  after_results_simp <;> rfl

theorem entry0_dst (c : Dev nD) : W3 m ρ c (Proc.devRef .tc main_v6) = dstIdx (m ((c : Thread nD τ).loc main_arg1)) := by
  show StableHlo.after hostOps0_2 (StableHlo.after hostOps0_1 (StableHlo.after hostOps0 (W0 m ρ c))) (Proc.devRef .tc main_v6) = _
  after_results_simp <;> rfl

theorem listsA_dst (c : Dev nD) : StableHlo.after (opsA (F := Ideal)) (W0 m ρ c) (Proc.devRef .tc main_v6) = dstIdx (m ((c : Thread nD τ).loc main_arg1)) := by
  after_results_simp <;> rfl

variable (Y : Valuation τ sig (Elt Ideal))

theorem restB_cmp : StableHlo.after (opsB (F := Ideal)) Y (Proc.devRef .tc main_v12)
    = cmpf (F := Ideal) (φ := .f32) .ogt (deg (Y (Proc.devRef .tc main_v6))) (broadcastInDim S100000 ![] bcast_S_S100000 (constant (F := Ideal) S_ .f32 0x00000000#32)) := by
  unfold deg
  after_results_simp <;> rfl
theorem restB_rsqrt : StableHlo.after (opsB (F := Ideal)) Y (Proc.devRef .tc main_v13) = Host.rsqrt (F := Ideal) (φ := .f32) (deg (Y (Proc.devRef .tc main_v6))) := by
  unfold deg
  after_results_simp <;> rfl
theorem restB_zero : StableHlo.after (opsB (F := Ideal)) Y (Proc.devRef .tc main_cst_2) = constant (F := Ideal) S_ .f32 0x00000000#32 := by
  after_results_simp <;> rfl

/-- The selection between the inverse square root and zero, over any contents of the stretch's inputs. -/
theorem where_sel : StableHlo.after (hostOps0_1 (F := Ideal)) Y (Proc.devRef .tc main_v14)
    = select (Y (Proc.devRef .tc main_v12)) (Y (Proc.devRef .tc main_v13))
        (broadcastInDim S100000 ![] bcast_S_S100000 (id (Y (Proc.devRef .tc main_cst_2)))) := by
  after_results_simp <;> rfl

theorem col_keep : StableHlo.after (hostOps0_2 (F := Ideal)) Y (Proc.devRef .tc main_v14) = Y (Proc.devRef .tc main_v14) := by
  after_results_simp <;> rfl
theorem col_cast : StableHlo.after (hostOps0_2 (F := Ideal)) Y (Proc.devRef .tc main_v15)
    = shapeCast S100000x1 (Y (Proc.devRef .tc main_v14)) shapeCasts_S100000_S100000x1 := by
  after_results_simp <;> rfl

theorem entry0_dinv (c : Dev nD) : W3 m ρ c (Proc.devRef .tc main_v14) = dinv (dstIdx (m ((c : Thread nD τ).loc main_arg1))) := by
  show StableHlo.after hostOps0_2 (StableHlo.after hostOps0_1 (StableHlo.after hostOps0 (W0 m ρ c))) (Proc.devRef .tc main_v14) = _
  rw [col_keep, where_sel, stretch0_split, restB_cmp, restB_rsqrt, restB_zero, listsA_dst]
  rfl

/-- The scale column the first region reads: the normalising factors as a 100000 × 1 array. -/
theorem entry0_col (c : Dev nD) : V3 m ρ c main_v15 = shapeCast S100000x1 (dinv (dstIdx (m ((c : Thread nD τ).loc main_arg1)))) shapeCasts_S100000_S100000x1 := by
  show StableHlo.after hostOps0_2 (StableHlo.after hostOps0_1 (StableHlo.after hostOps0 (W0 m ρ c))) (Proc.devRef .tc main_v15) = _
  rw [col_cast]
  exact congrArg (fun d => shapeCast S100000x1 d shapeCasts_S100000_S100000x1) (entry0_dinv m ρ c)

theorem entry0_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem entry0_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem entry0_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem mid_arg3 (c : Dev nD) : W4 m ρ c (Proc.devRef .tc main_arg3) = m ((c : Thread nD τ).loc main_arg3) :=
  (W4_of_ne m ρ c main_arg3 (by decide)).trans (entry0_arg3 m ρ c)

theorem entry0_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem mid_arg4 (c : Dev nD) : W4 m ρ c (Proc.devRef .tc main_arg4) = m ((c : Thread nD τ).loc main_arg4) :=
  (W4_of_ne m ρ c main_arg4 (by decide)).trans (entry0_arg4 m ρ c)

theorem entry0_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem mid_arg5 (c : Dev nD) : W4 m ρ c (Proc.devRef .tc main_arg5) = m ((c : Thread nD τ).loc main_arg5) :=
  (W4_of_ne m ρ c main_arg5 (by decide)).trans (entry0_arg5 m ρ c)

/-- The features and the weights the first region reads are the launch contents. -/
theorem entry0_x (c : Dev nD) : V3 m ρ c main_arg0 = m ((c : Thread nD τ).loc main_arg0) := entry0_arg0 m ρ c
theorem entry0_w (c : Dev nD) : V3 m ρ c main_arg2 = m ((c : Thread nD τ).loc main_arg2) := entry0_arg2 m ρ c

/-! ## The second region's entry contents -/

theorem mid_src (c : Dev nD) : W4 m ρ c (Proc.devRef .tc main_v3) = srcIdx (m ((c : Thread nD τ).loc main_arg1)) :=
  (W4_of_ne m ρ c main_v3 (by decide)).trans (entry0_src m ρ c)
theorem mid_dst (c : Dev nD) : W4 m ρ c (Proc.devRef .tc main_v6) = dstIdx (m ((c : Thread nD τ).loc main_arg1)) :=
  (W4_of_ne m ρ c main_v6 (by decide)).trans (entry0_dst m ρ c)
theorem mid_dinv (c : Dev nD) : W4 m ρ c (Proc.devRef .tc main_v14) = dinv (dstIdx (m ((c : Thread nD τ).loc main_arg1))) :=
  (W4_of_ne m ρ c main_v14 (by decide)).trans (entry0_dinv m ρ c)
/-- The first region's result array, as the second stretch of host operations finds it. -/
theorem mid_g (c : Dev nD) : W4 m ρ c (Proc.devRef .tc main_v16) = (dat0 (V3 m ρ) c).arrAt 3 cfg0.N := W4_arr m ρ c 3

set_option maxRecDepth 65536 in
set_option maxHeartbeats 4000000 in
/-- The second region's first operand: the operations between the regions applied to the first region's result. -/
theorem entry1_rows (c : Dev nD) :
    V5 m ρ c main_v32 = mid ((dat0 (V3 m ρ) c).arrAt 3 cfg0.N) (srcIdx (m ((c : Thread nD τ).loc main_arg1)))
      (dstIdx (m ((c : Thread nD τ).loc main_arg1))) (dinv (dstIdx (m ((c : Thread nD τ).loc main_arg1)))) (m ((c : Thread nD τ).loc main_arg3)) := by
  have h : StableHlo.after hostOps1 (W4 m ρ c) (Proc.devRef .tc main_v32)
      = mid (W4 m ρ c (Proc.devRef .tc main_v16)) (W4 m ρ c (Proc.devRef .tc main_v3)) (W4 m ρ c (Proc.devRef .tc main_v6))
          (W4 m ρ c (Proc.devRef .tc main_v14)) (W4 m ρ c (Proc.devRef .tc main_arg3)) := by
    unfold mid wrap
    after_results_simp <;> rfl
  rw [mid_g, mid_src, mid_dst, mid_dinv, mid_arg3] at h
  exact h

/-- Its weights are the launch contents. -/
theorem entry1_w (c : Dev nD) : V5 m ρ c main_arg4 = m ((c : Thread nD τ).loc main_arg4) := by
  have h : StableHlo.after hostOps1 (W4 m ρ c) (Proc.devRef .tc main_arg4) = W4 m ρ c (Proc.devRef .tc main_arg4) := by
    after_results_simp <;> rfl
  exact h.trans (mid_arg4 m ρ c)

/-- Its bias row is the launch bias as a 1 × 8 array. -/
theorem entry1_bias (c : Dev nD) : V5 m ρ c main_v33 = shapeCast S1x8 (m ((c : Thread nD τ).loc main_arg5)) shapeCasts_S8_S1x8 := by
  have h : StableHlo.after hostOps1 (W4 m ρ c) (Proc.devRef .tc main_v33) = shapeCast S1x8 (W4 m ρ c (Proc.devRef .tc main_arg5)) shapeCasts_S8_S1x8 := by
    after_results_simp <;> rfl
  rw [mid_arg5] at h
  exact h

end Cert.KernelIdeal.KHost

end
-- ==== Proof.KValue.lean ====
/-
  The idealized kernel's result as one function of the launch contents.
  The first region leaves the feature product with row i scaled by the normalising factor of node i (the region reads
  the factors as a 100000 × 1 column; entry (i, 0) of the column is entry i of the factors). The host operations between
  the regions gather, sum and scale those rows and add the bias row. The second region leaves the output stage of that
  array, the classifier's weights and the bias (the region reads the bias as a 1 × 8 row; entry (0, c) of the row is
  entry c of the bias).
-/
import proofs.«135299_j19928648253615_1_alg».proof.Proof.KRun
import proofs.«135299_j19928648253615_1_alg».proof.Proof.Blocks0
import proofs.«135299_j19928648253615_1_alg».proof.Proof.Blocks1
import proofs.«135299_j19928648253615_1_alg».proof.Proof.KHost
import proofs.«135299_j19928648253615_1_alg».proof.Proof.Spec
import Idealize.ShloMosaic.Lib.ValueLayout

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx

/-- The feature product with row i scaled by dv[i]. -/
def scaled (x : FVec Ideal S100000x256 .f32) (w : FVec Ideal S256x128 .f32) (dv : FVec Ideal S100000 .f32) :
    FVec Ideal S100000x128 .f32 :=
  fun p => Cert.Gcn.feat x w p * dv (ix1 (p 0))

/-- The kernel's result from the six argument arrays. -/
def result (x : FVec Ideal S100000x256 .f32) (ei : IVec S2x1600000 32) (w : FVec Ideal S256x128 .f32) (b1 : FVec Ideal S128 .f32)
    (wfc : FVec Ideal S128x8 .f32) (bfc : FVec Ideal S8 .f32) : FVec Ideal S100000x8 .f32 :=
  Cert.Gcn.classify
    (KHost.mid (scaled x w (KHost.dinv (KHost.dstIdx ei))) (KHost.srcIdx ei) (KHost.dstIdx ei) (KHost.dinv (KHost.dstIdx ei)) b1)
    wfc bfc

variable (m : (ℓ : Loc nD τ sig) → Buf (Elt Ideal) ℓ) (ρ : Dev nD → PrngReg)

/-- What the first region leaves in its result array. -/
theorem region0 (c : Dev nD) : (dat0 (V3 m ρ) c).arrAt 3 cfg0.N
    = scaled (m ((c : Thread nD τ).loc main_arg0)) (m ((c : Thread nD τ).loc main_arg2))
        (KHost.dinv (KHost.dstIdx (m ((c : Thread nD τ).loc main_arg1)))) := by
  rw [Blocks0.final (V3 m ρ) c]
  unfold Blocks0.result scaled
  funext p
  rw [KHost.entry0_x, KHost.entry0_w, KHost.entry0_col]
  refine congrArg (fun z : EReal => Cert.Gcn.feat _ _ p * z) ?_
  exact shapeCast_apply _ _ _ _ (by
    rw [Shape.rowMajor_val_one, Shape.rowMajor_val_two]
    show (p 0).val = (p 0).val * 1 + 0
    omega)

/-- What the second region leaves in the result array. -/
theorem region1 (c : Dev nD) : (dat1 (V5 m ρ) c).arrAt 3 cfg1.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [Blocks1.final (V5 m ρ) c]
  unfold Blocks1.result result
  rw [KHost.entry1_rows, KHost.entry1_w, KHost.entry1_bias, region0]
  refine congrArg (Cert.Gcn.classify _ _) (funext fun b => ?_)
  obtain ⟨i, rfl⟩ : ∃ i : Fin 8, b = ix1 i := ⟨b 0, eq_ix1 b⟩
  exact shapeCast_a_1a_apply _ _ 0 i

/-- Every weakly fair execution of the idealized kernel terminates, without a fault, with the result array at
    `result` of the launch contents and the arguments unchanged. -/
theorem run : θ_run defs (onTc (τ := τ) (main (F := Ideal))) ⟨m, fun _ => 0, ρ⟩ (fun r => ∀ c : Dev nD,
      r.2.mem ((c.tc : Thread nD τ).loc main_v34)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (region1 m ρ c), (h c).2⟩) (KRun.run_main (F := Ideal) m ρ)

end Cert.KernelIdeal.KValue

end
-- ==== Proof.RefValue.lean ====
/-
  The reference program's result as a structured term, and its two dense stages read as the shared specification.
  The reference computes one graph-convolution layer followed by a linear output stage. Its index lists are the two rows
  of the edge list, each followed by the self-loop indices 0 … 99999; an index is normalised by adding the node count
  where it is negative. The degree of a node counts the entries of the destination list equal to it (a scatter-add of
  ones), and the scaling vector is its reciprocal square root where the degree is positive, zero elsewhere. The
  aggregate adds, into row dst[e], the row src[e] of the feature product scaled by dinv[src[e]] · dinv[dst[e]], then
  adds the bias row. Those shared pieces are named here over the reference's own constants, so that the result of the
  run is literally the output stage applied to the aggregate of the feature product.
-/
import proofs.«135299_j19928648253615_1_alg».proof.Proof.RefRun
import proofs.«135299_j19928648253615_1_alg».proof.Proof.Spec
import Idealize.ShloMosaic.Lib.ValueIdx
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The shared pieces of the reference's term -/

/-- The source list: row 0 of the edge list, then the self-loop indices 0 … 99999. -/
def srcIdx (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destination list: row 1 of the edge list, then the self-loop indices 0 … 99999. -/
def dstIdx (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- An index list normalised: a negative entry has the node count 100000 added. -/
def norm (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- The degree vector: zero plus one for every entry of the destination list, added at the node it names. -/
def deg (ei : IVec S2x1600000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstIdx ei)) (broadcastInDim S1700000 ![] bcast_S_S1700000 (constant S_ .f32 0x3F800000#32))

/-- The scaling vector: the reciprocal square root of the degree where it is positive, zero elsewhere. -/
def dinv (ei : IVec S2x1600000 32) : FVec Ideal S100000 .f32 :=
  select (cmpf (F := Ideal) .ogt (deg ei) (broadcastInDim S100000 ![] bcast_S_S100000 (constant S_ .f32 0x00000000#32))) (Host.rsqrt (deg ei)) (broadcastInDim S100000 ![] bcast_S_S100000 (id (constant S_ .f32 0x00000000#32)))

/-- The aggregate of a feature array `h`: into row dst[e] is added row src[e] of `h` scaled by
    dinv[src[e]] · dinv[dst[e]], over every entry e of the lists; then the bias row `b1` is added to every row. -/
def agg (h : FVec Ideal S100000x128 .f32) (ei : IVec S2x1600000 32) (b1 : FVec Ideal S128 .f32) : FVec Ideal S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstIdx ei)) (mulf (Host.gather gather_S100000x128_S1700000x1_S1700000x128_1_0_n_n_0_1_1128 h (broadcastInDim S1700000x1 ![0] bcast_S1700000_S1700000x1_0 (norm (srcIdx ei)))) (broadcastInDim S1700000x128 ![0, 1] bcast_S1700000x1_S1700000x128_0_1 (broadcastInDim S1700000x1 ![0] bcast_S1700000_S1700000x1_0 (mulf (Host.gather gather_S100000_S1700000x1_S1700000_n_0_n_n_0_1_1 (dinv ei) (broadcastInDim S1700000x1 ![0] bcast_S1700000_S1700000x1_0 (norm (srcIdx ei)))) (Host.gather gather_S100000_S1700000x1_S1700000_n_0_n_n_0_1_1 (dinv ei) (broadcastInDim S1700000x1 ![0] bcast_S1700000_S1700000x1_0 (norm (dstIdx ei))))))))) (broadcastInDim S100000x128 ![0, 1] bcast_S1x128_S100000x128_0_1 (broadcastInDim S1x128 ![1] bcast_S128_S1x128_1 b1))

/-! ## The run's result is the output stage of the aggregate of the feature product -/

/-- The run's result, with the shared pieces named: the unfolded sides are the same term. -/
theorem res_structured (m : (ℓ : Loc nD τ sig) → Buf (Elt Ideal) ℓ) (c : Dev nD) :
    RunP.res_main_v50 (F := Ideal) m c =
      addf (Host.dotGeneral (φ₁ := .f32) (φ₂ := .f32) dot_S100000x128_S128x8_S100000x8_1_0_0_1_n_n none (agg (Host.dotGeneral (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4))) (broadcastInDim S100000x8 ![0, 1] bcast_S1x8_S100000x8_0_1 (broadcastInDim S1x8 ![1] bcast_S8_S1x8_1 (m ((c.tc : Thread nD τ).loc main_arg5)))) := by
  unfold RunP.res_main_v50 agg dinv deg norm srcIdx dstIdx
  rfl

/-! ## The two dense stages are the shared specification's -/

/-- The left operand's index at an output index and a contraction index: the row is the output's. -/
theorem dot1_lhs_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
/-- The left operand's column is the contraction coordinate. -/
theorem dot1_lhs_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
/-- The right operand's row is the contraction coordinate. -/
theorem dot1_rhs_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
/-- The right operand's column is the output's. -/
theorem dot1_rhs_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The product read at an output index: the sum over the contracted axis of the left operand's row entry times the
    right operand's column entry. The contraction index has one coordinate, so the sum is re-indexed over it. -/
theorem dot1_apply (x : FVec Ideal S100000x256 .f32) (w : FVec Ideal S256x128 .f32) (p : S100000x128.Idx) :
    Host.dotGeneral (F := Ideal) (φ₁ := .f32) (φ₂ := .f32) dot_S100000x256_S256x128_S100000x128_1_0_0_1_n_n none x w p = ∑ k : Fin 256, x (ix2 (p 0) k) * w (ix2 k (p 1)) := by
  simp only [Host.dotGeneral]
  rw [Ideal.dotGeneral_apply, ← Equiv.sum_comp (contrEquiv1 dot_S100000x256_S256x128_S100000x128_1_0_0_1_n_n 256 rfl rfl).symm]
  refine Finset.sum_congr rfl fun k _ => ?_
  have hk := contrEquiv1_symm_val dot_S100000x256_S256x128_S100000x128_1_0_0_1_n_n 256 rfl rfl k
  have el : dot_S100000x256_S256x128_S100000x128_1_0_0_1_n_n.lhsIdx p ((contrEquiv1 dot_S100000x256_S256x128_S100000x128_1_0_0_1_n_n 256 rfl rfl).symm k) = ix2 (p 0) k := funext fun a => Fin.ext (by
    match a with
    | ⟨0, _⟩ => exact dot1_lhs_0 _ _
    | ⟨1, _⟩ => exact (dot1_lhs_1 _ _).trans hk)
  have er : dot_S100000x256_S256x128_S100000x128_1_0_0_1_n_n.rhsIdx p ((contrEquiv1 dot_S100000x256_S256x128_S100000x128_1_0_0_1_n_n 256 rfl rfl).symm k) = ix2 k (p 1) := funext fun a => Fin.ext (by
    match a with
    | ⟨0, _⟩ => exact (dot1_rhs_0 _ _).trans hk
    | ⟨1, _⟩ => exact dot1_rhs_1 _ _)
  rw [el, er]
  rfl

/-- The reference's first product is the feature product. -/
theorem dot1_eq (x : FVec Ideal S100000x256 .f32) (w : FVec Ideal S256x128 .f32) :
    Host.dotGeneral (F := Ideal) (φ₁ := .f32) (φ₂ := .f32) dot_S100000x256_S256x128_S100000x128_1_0_0_1_n_n none x w = Cert.Gcn.feat x w :=
  funext fun p => dot1_apply x w p

/-- The left operand's index at an output index and a contraction index: the row is the output's. -/
theorem dot2_lhs_0 (i : S100000x8.Idx) (q : dot_S100000x128_S128x8_S100000x8_1_0_0_1_n_n.contr.Idx) :
    (dot_S100000x128_S128x8_S100000x8_1_0_0_1_n_n.lhsIdx i q 0).val = (i 0).val := by
  unfold DotDims.lhsIdx
  rw [dif_neg (show ¬(0 : Fin S100000x128.rank) ∈ dot_S100000x128_S128x8_S100000x8_1_0_0_1_n_n.lhsBatch by decide), dif_pos (show (0 : Fin S100000x128.rank) ∈ dot_S100000x128_S128x8_S100000x8_1_0_0_1_n_n.lhsNonContracting by decide)]
  rfl
/-- The left operand's column is the contraction coordinate. -/
theorem dot2_lhs_1 (i : S100000x8.Idx) (q : dot_S100000x128_S128x8_S100000x8_1_0_0_1_n_n.contr.Idx) :
    (dot_S100000x128_S128x8_S100000x8_1_0_0_1_n_n.lhsIdx i q 1).val = (q ⟨0, by decide⟩).val :=
  dot_S100000x128_S128x8_S100000x8_1_0_0_1_n_n.lhsIdx_val_of_single rfl i q
/-- The right operand's row is the contraction coordinate. -/
theorem dot2_rhs_0 (i : S100000x8.Idx) (q : dot_S100000x128_S128x8_S100000x8_1_0_0_1_n_n.contr.Idx) :
    (dot_S100000x128_S128x8_S100000x8_1_0_0_1_n_n.rhsIdx i q 0).val = (q ⟨0, by decide⟩).val :=
  dot_S100000x128_S128x8_S100000x8_1_0_0_1_n_n.rhsIdx_val_of_single rfl i q
/-- The right operand's column is the output's. -/
theorem dot2_rhs_1 (i : S100000x8.Idx) (q : dot_S100000x128_S128x8_S100000x8_1_0_0_1_n_n.contr.Idx) :
    (dot_S100000x128_S128x8_S100000x8_1_0_0_1_n_n.rhsIdx i q 1).val = (i 1).val := by
  unfold DotDims.rhsIdx
  rw [dif_neg (show ¬(1 : Fin S128x8.rank) ∈ dot_S100000x128_S128x8_S100000x8_1_0_0_1_n_n.rhsBatch by decide), dif_pos (show (1 : Fin S128x8.rank) ∈ dot_S100000x128_S128x8_S100000x8_1_0_0_1_n_n.rhsNonContracting by decide)]
  rfl

/-- The product read at an output index: the sum over the contracted axis of the left operand's row entry times the
    right operand's column entry. The contraction index has one coordinate, so the sum is re-indexed over it. -/
theorem dot2_apply (x : FVec Ideal S100000x128 .f32) (w : FVec Ideal S128x8 .f32) (p : S100000x8.Idx) :
    Host.dotGeneral (F := Ideal) (φ₁ := .f32) (φ₂ := .f32) dot_S100000x128_S128x8_S100000x8_1_0_0_1_n_n none x w p = ∑ k : Fin 128, x (ix2 (p 0) k) * w (ix2 k (p 1)) := by
  simp only [Host.dotGeneral]
  rw [Ideal.dotGeneral_apply, ← Equiv.sum_comp (contrEquiv1 dot_S100000x128_S128x8_S100000x8_1_0_0_1_n_n 128 rfl rfl).symm]
  refine Finset.sum_congr rfl fun k _ => ?_
  have hk := contrEquiv1_symm_val dot_S100000x128_S128x8_S100000x8_1_0_0_1_n_n 128 rfl rfl k
  have el : dot_S100000x128_S128x8_S100000x8_1_0_0_1_n_n.lhsIdx p ((contrEquiv1 dot_S100000x128_S128x8_S100000x8_1_0_0_1_n_n 128 rfl rfl).symm k) = ix2 (p 0) k := funext fun a => Fin.ext (by
    match a with
    | ⟨0, _⟩ => exact dot2_lhs_0 _ _
    | ⟨1, _⟩ => exact (dot2_lhs_1 _ _).trans hk)
  have er : dot_S100000x128_S128x8_S100000x8_1_0_0_1_n_n.rhsIdx p ((contrEquiv1 dot_S100000x128_S128x8_S100000x8_1_0_0_1_n_n 128 rfl rfl).symm k) = ix2 k (p 1) := funext fun a => Fin.ext (by
    match a with
    | ⟨0, _⟩ => exact (dot2_rhs_0 _ _).trans hk
    | ⟨1, _⟩ => exact dot2_rhs_1 _ _)
  rw [el, er]
  rfl

/-- The bias of the output stage, broadcast first to one row and then to every row, read at an index: the bias at
    the column. -/
theorem bias_apply (b : FVec Ideal S8 .f32) (q : S100000x8.Idx) :
    broadcastInDim S100000x8 ![0, 1] bcast_S1x8_S100000x8_0_1 (broadcastInDim S1x8 ![1] bcast_S8_S1x8_1 b) q = b (ix1 (q 1)) := by
  refine (broadcastInDim_apply _ bcast_S1x8_S100000x8_0_1 _ q (ix2 (0 : Fin 1) (q 1)) (fun a => match a with
    | ⟨0, _⟩ => by show 0 = if (1 : Nat) = 1 then 0 else (q 0).val; rw [if_pos rfl]
    | ⟨1, _⟩ => by show (q 1).val = if (8 : Nat) = 1 then 0 else (q 1).val; rw [if_neg (by decide)])).trans ?_
  exact broadcastInDim_apply _ bcast_S8_S1x8_1 b (ix2 (0 : Fin 1) (q 1)) (ix1 (q 1)) (fun a => match a with
    | ⟨0, _⟩ => by show (q 1).val = if (8 : Nat) = 1 then 0 else (q 1).val; rw [if_neg (by decide)])

/-- The reference's second product plus the broadcast bias is the output stage. -/
theorem classify_eq (a : FVec Ideal S100000x128 .f32) (w : FVec Ideal S128x8 .f32) (b : FVec Ideal S8 .f32) :
    addf (Host.dotGeneral (F := Ideal) (φ₁ := .f32) (φ₂ := .f32) dot_S100000x128_S128x8_S100000x8_1_0_0_1_n_n none a w) (broadcastInDim S100000x8 ![0, 1] bcast_S1x8_S100000x8_0_1 (broadcastInDim S1x8 ![1] bcast_S8_S1x8_1 b)) = Cert.Gcn.classify a w b := by
  funext q
  rw [addf_apply, dot2_apply, bias_apply]
  rfl

/-- The run's result is the output stage applied to the aggregate of the feature product. -/
theorem result_eq (m : (ℓ : Loc nD τ sig) → Buf (Elt Ideal) ℓ) (c : Dev nD) :
    RunP.res_main_v50 (F := Ideal) m c =
      Cert.Gcn.classify (agg (Cert.Gcn.feat (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) (m ((c.tc : Thread nD τ).loc main_arg5)) := by
  rw [res_structured, dot1_eq, classify_eq]

end Cert.ReferenceIdeal.RefValue

end
-- ==== Proof.Bounds.lean ====
/-
  The scaling vector of the layer is bounded whatever the degree vector is: it is the reciprocal square root of the
  degree where the degree is positive and zero elsewhere, and the reciprocal square root of a positive extended real is
  a non-negative real (it is 0 at +∞). So every entry is non-negative and finite from above.
-/
import Idealize.ShloMosaic.PureOps.Ideal
import Idealize.ShloMosaic.Lib.ValueIdx

noncomputable section

namespace Cert.Gcn

open Idealize.ShloMosaic Idealize.ShloMosaic.ValueIdx

/-- The reciprocal square root of a positive extended real is non-negative and is not +∞: at +∞ it is 0, at a positive
    real r it is the real 1 / √r. -/
theorem rsqrt_pos_bounds {x : EReal} (hx : 0 < x) : 0 ≤ Ideal.rsqrt x ∧ Ideal.rsqrt x ≠ ⊤ := by
  induction x using EReal.rec with
  | bot => exact absurd hx (not_lt_bot)
  | top => exact ⟨le_refl _, EReal.zero_ne_top⟩
  | coe r =>
    have hr : 0 < r := by exact_mod_cast hx
    show 0 ≤ (if r < 0 then (⊥ : EReal) else if r = 0 then ⊤ else ((Real.sqrt r)⁻¹ : ℝ)) ∧
      (if r < 0 then (⊥ : EReal) else if r = 0 then ⊤ else ((Real.sqrt r)⁻¹ : ℝ)) ≠ ⊤
    rw [if_neg (not_lt.mpr hr.le), if_neg hr.ne']
    exact ⟨by exact_mod_cast inv_nonneg.mpr (Real.sqrt_nonneg r), EReal.coe_ne_top _⟩

/-- The zero constant is the extended real 0. -/
theorem ofBits_f32_zero : Ideal.ofBits .f32 0x00000000#32 = 0 := by simp [Ideal.ofBits, Ideal.ieee]

/-- The scaling vector at an index, for an arbitrary degree vector: where the degree is positive the comparison bit is
    set and the entry is the reciprocal square root of a positive value; elsewhere the bit is clear and the entry is
    the zero constant. In both cases it is non-negative and not +∞. -/
theorem invSqrt_bounds (deg : (⟨1, ![100000]⟩ : Shape).Idx → EReal) (hb : (⟨0, ![]⟩ : Shape).BroadcastsInDim (⟨1, ![100000]⟩ : Shape) ![]) (i : (⟨1, ![100000]⟩ : Shape).Idx) :
    0 ≤ (select (cmpf (F := Ideal) (φ := .f32) .ogt deg (broadcastInDim (⟨1, ![100000]⟩ : Shape) ![] hb (constant (F := Ideal) (⟨0, ![]⟩ : Shape) .f32 0x00000000#32))) (Host.rsqrt (F := Ideal) (φ := .f32) deg) (broadcastInDim (⟨1, ![100000]⟩ : Shape) ![] hb (id (constant (F := Ideal) (⟨0, ![]⟩ : Shape) .f32 0x00000000#32)))) i
    ∧ (select (cmpf (F := Ideal) (φ := .f32) .ogt deg (broadcastInDim (⟨1, ![100000]⟩ : Shape) ![] hb (constant (F := Ideal) (⟨0, ![]⟩ : Shape) .f32 0x00000000#32))) (Host.rsqrt (F := Ideal) (φ := .f32) deg) (broadcastInDim (⟨1, ![100000]⟩ : Shape) ![] hb (id (constant (F := Ideal) (⟨0, ![]⟩ : Shape) .f32 0x00000000#32)))) i ≠ ⊤ := by
  show 0 ≤ Scalar.select (Ideal.cmp .ogt (deg i) (Ideal.ofBits .f32 0x00000000#32)) (Ideal.rsqrt (deg i)) (Ideal.ofBits .f32 0x00000000#32)
    ∧ Scalar.select (Ideal.cmp .ogt (deg i) (Ideal.ofBits .f32 0x00000000#32)) (Ideal.rsqrt (deg i)) (Ideal.ofBits .f32 0x00000000#32) ≠ ⊤
  rw [ofBits_f32_zero]
  by_cases h : (0 : EReal) < deg i
  · have hc : Ideal.cmp .ogt (deg i) 0 = 1#1 := by
      show BitVec.ofBool (decide (0 < deg i)) = 1#1
      rw [decide_eq_true h]; rfl
    rw [hc, select_one]
    exact rsqrt_pos_bounds h
  · have hc : Ideal.cmp .ogt (deg i) 0 = 0#1 := by
      show BitVec.ofBool (decide (0 < deg i)) = 0#1
      rw [decide_eq_false h]; rfl
    rw [hc, select_zero]
    exact ⟨le_refl _, EReal.zero_ne_top⟩

end Cert.Gcn

end
-- ==== Proof.Middle.lean ====
/-
  The gather / scatter-add identity of the normalised aggregation, on the extended reals.
  With d a per-node factor (non-negative, never +∞), h the node features, src and dst the edge ends:
  scaling, at each node r, the sum over the edges into r of h[src] · d[src] by d[r] afterwards equals summing
  h[src] · (d[src] · d[dst]) over the same edges, because every edge whose update lands at r has dst = r.
  The file first reads the broadcasts, the two gathers and the scatter at an index by coordinates, then does the
  algebra: a non-negative factor that is not +∞ distributes over sums of extended reals.
-/
import Idealize.ShloMosaic.PureOps.Ideal
import Idealize.ShloMosaic.Lib.ValueIdx
import Idealize.ShloMosaic.PureOps.Ideal.Laws

noncomputable section

open scoped BigOperators

namespace Cert.Gcn

open Idealize.ShloMosaic Idealize.ShloMosaic.ValueIdx

/-- The gather of whole feature rows: operand [100000, 128], one start index per edge, result [1700000, 128]. -/
abbrev rowsDims (wf : GatherDims.WF (⟨2, ![100000, 128]⟩ : Shape) (⟨2, ![1700000, 1]⟩ : Shape) (⟨2, ![1700000, 128]⟩ : Shape)
      [1] [0] [] [0] [] 1 ![1, 128]) :
    GatherDims ⟨2, ![100000, 128]⟩ ⟨2, ![1700000, 1]⟩ ⟨2, ![1700000, 128]⟩ where
  offsetDims := [1]
  collapsedSliceDims := [0]
  operandBatchingDims := []
  startIndicesBatchingDims := []
  startIndexMap := [0]
  indexVectorDim := 1
  sliceSizes := ![1, 128]
  wf := wf

/-- The gather of single entries of a per-node array: operand [100000], one start index per edge, result [1700000]. -/
abbrev entryDims (wf : GatherDims.WF (⟨1, ![100000]⟩ : Shape) (⟨2, ![1700000, 1]⟩ : Shape) (⟨1, ![1700000]⟩ : Shape)
      [] [0] [] [0] [] 1 ![1]) :
    GatherDims ⟨1, ![100000]⟩ ⟨2, ![1700000, 1]⟩ ⟨1, ![1700000]⟩ where
  offsetDims := []
  collapsedSliceDims := [0]
  operandBatchingDims := []
  startIndicesBatchingDims := []
  startIndexMap := [0]
  indexVectorDim := 1
  sliceSizes := ![1]
  wf := wf

/-- The scatter that adds whole rows: operand [100000, 128], one scatter index per edge, updates [1700000, 128]. -/
abbrev addRowsDims (wf : ScatterDims.WF (⟨2, ![100000, 128]⟩ : Shape) (⟨2, ![1700000, 1]⟩ : Shape) (⟨2, ![1700000, 128]⟩ : Shape)
      [1] [0] [0] 1) :
    ScatterDims ⟨2, ![100000, 128]⟩ ⟨2, ![1700000, 1]⟩ ⟨2, ![1700000, 128]⟩ where
  updateWindowDims := [1]
  insertedWindowDims := [0]
  scatterDimsToOperandDims := [0]
  indexVectorDim := 1
  wf := wf

/-- The index normalisation: a start index that is negative as a signed word is moved up by the node count. -/
abbrev norm (hb0 : (⟨0, ![]⟩ : Shape).BroadcastsInDim (⟨1, ![1700000]⟩ : Shape) ![]) (v : IVec (⟨1, ![1700000]⟩ : Shape) 32) :
    IVec (⟨1, ![1700000]⟩ : Shape) 32 :=
  select (cmpi .slt v (broadcastInDim (⟨1, ![1700000]⟩ : Shape) ![] hb0 (constantI (⟨0, ![]⟩ : Shape) 32 0#32)))
    (addi v (broadcastInDim (⟨1, ![1700000]⟩ : Shape) ![] hb0 (constantI (⟨0, ![]⟩ : Shape) 32 100000#32))) v

/-! ## Broadcasts read at an index -/

/-- A per-edge array broadcast to a column reads the edge's entry. -/
theorem bcE_apply {α : Type} (hbE : (⟨1, ![1700000]⟩ : Shape).BroadcastsInDim (⟨2, ![1700000, 1]⟩ : Shape) ![0])
    (v : (⟨1, ![1700000]⟩ : Shape).Idx → α) (e : Fin 1700000) (z : Fin 1) :
    broadcastInDim (⟨2, ![1700000, 1]⟩ : Shape) ![0] hbE v (ix2 e z) = v (ix1 e) := by
  unfold broadcastInDim
  refine congrArg v (funext fun a => ?_)
  match a with
  | ⟨0, _⟩ => rfl

/-- A column broadcast along the rows' width reads the column's entry. -/
theorem bcE2_apply {α : Type} (hbE2 : (⟨2, ![1700000, 1]⟩ : Shape).BroadcastsInDim (⟨2, ![1700000, 128]⟩ : Shape) ![0, 1])
    (u : (⟨2, ![1700000, 1]⟩ : Shape).Idx → α) (e : Fin 1700000) (k : Fin 128) :
    broadcastInDim (⟨2, ![1700000, 128]⟩ : Shape) ![0, 1] hbE2 u (ix2 e k) = u (ix2 e 0) := by
  unfold broadcastInDim
  refine congrArg u (funext fun a => ?_)
  match a with
  | ⟨0, _⟩ => rfl
  | ⟨1, _⟩ => rfl

/-- A per-node array broadcast to every column of the node's row reads the node's entry. -/
theorem bcn_apply {α : Type} (hbn : (⟨1, ![100000]⟩ : Shape).BroadcastsInDim (⟨2, ![100000, 1]⟩ : Shape) ![0])
    (hbn2 : (⟨2, ![100000, 1]⟩ : Shape).BroadcastsInDim (⟨2, ![100000, 128]⟩ : Shape) ![0, 1])
    (v : (⟨1, ![100000]⟩ : Shape).Idx → α) (r : Fin 100000) (c : Fin 128) :
    broadcastInDim (⟨2, ![100000, 128]⟩ : Shape) ![0, 1] hbn2 (broadcastInDim (⟨2, ![100000, 1]⟩ : Shape) ![0] hbn v) (ix2 r c)
      = v (ix1 r) := by
  unfold broadcastInDim
  refine congrArg v (funext fun a => ?_)
  match a with
  | ⟨0, _⟩ => rfl

/-! ## The two gathers' operand indices -/

/-- The entry gather reads the operand at the edge's start index, read signed and clamped into [0, 99999]. -/
theorem entry_operandIdx {w : Nat} (wfg) (idx : IVec (⟨2, ![1700000, 1]⟩ : Shape) w) (e : Fin 1700000) :
    (entryDims wfg).operandIdx (ix1 e) idx = ix1 ⟨min (idx (ix2 e 0)).toInt.toNat (100000 - 1), by omega⟩ := by
  funext a
  obtain rfl : a = 0 := Subsingleton.elim _ _
  refine Fin.ext ?_
  show (entryDims wfg).start (ix1 e) idx 0 + (entryDims wfg).batchCoord (ix1 e) 0 + (entryDims wfg).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims wfg).startIndexMap from List.mem_singleton.mpr rfl)]
  have hsi : (entryDims wfg).siIdx (ix1 e) ⟨List.idxOf (0 : Fin 1) (entryDims wfg).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The row gather reads the operand's row at the edge's start index, read signed and clamped into [0, 99999], at the
    result's own column. -/
theorem rows_operandIdx {w : Nat} (wfG) (idx : IVec (⟨2, ![1700000, 1]⟩ : Shape) w) (e : Fin 1700000) (k : Fin 128) :
    (rowsDims wfG).operandIdx (ix2 e k) idx = ix2 ⟨min (idx (ix2 e 0)).toInt.toNat (100000 - 1), by omega⟩ k := by
  funext a
  refine Fin.ext ?_
  match a with
  | ⟨0, _⟩ =>
    show (rowsDims wfG).start (ix2 e k) idx 0 + (rowsDims wfG).batchCoord (ix2 e k) 0 + (rowsDims wfG).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wfG).startIndexMap from List.mem_singleton.mpr rfl)]
    have hsi : (rowsDims wfG).siIdx (ix2 e k) ⟨List.idxOf (0 : Fin 2) (rowsDims wfG).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims wfG).start (ix2 e k) idx 1 + (rowsDims wfG).batchCoord (ix2 e k) 1 + (rowsDims wfG).offCoord (ix2 e k) 1 = _
    rw [GatherDims.batchCoord_eq_zero _ _ _ List.not_mem_nil]
    have hs : (rowsDims wfG).start (ix2 e k) idx 1 = 0 := by
      unfold GatherDims.start
      rw [dif_neg (show (1 : Fin 2) ∉ ([0] : List (Fin 2)) by decide)]
    rw [hs]
    have ho : (rowsDims wfG).offCoord (ix2 e k) 1 = k.val := by
      unfold GatherDims.offCoord
      rw [dif_pos ((GatherDims.mem_sKept _ _).mpr ⟨show (1 : Fin 2) ∉ ([0] : List (Fin 2)) by decide, List.not_mem_nil⟩)]
      rfl
    rw [ho]
    simp

/-- The entry gather at start indices that are a per-edge array broadcast to a column. -/
theorem entry_operandIdx_bc {w : Nat} (wfg) (hbE : (⟨1, ![1700000]⟩ : Shape).BroadcastsInDim (⟨2, ![1700000, 1]⟩ : Shape) ![0])
    (v : IVec (⟨1, ![1700000]⟩ : Shape) w) (e : Fin 1700000) :
    (entryDims wfg).operandIdx (ix1 e) (broadcastInDim (⟨2, ![1700000, 1]⟩ : Shape) ![0] hbE v)
      = ix1 ⟨min (v (ix1 e)).toInt.toNat (100000 - 1), by omega⟩ := by
  rw [entry_operandIdx]
  refine congrArg ix1 (Fin.ext ?_)
  show min (broadcastInDim (⟨2, ![1700000, 1]⟩ : Shape) ![0] hbE v (ix2 e 0)).toInt.toNat (100000 - 1) = _
  rw [bcE_apply]

/-- The row gather at start indices that are a per-edge array broadcast to a column. -/
theorem rows_operandIdx_bc {w : Nat} (wfG) (hbE : (⟨1, ![1700000]⟩ : Shape).BroadcastsInDim (⟨2, ![1700000, 1]⟩ : Shape) ![0])
    (v : IVec (⟨1, ![1700000]⟩ : Shape) w) (e : Fin 1700000) (k : Fin 128) :
    (rowsDims wfG).operandIdx (ix2 e k) (broadcastInDim (⟨2, ![1700000, 1]⟩ : Shape) ![0] hbE v)
      = ix2 ⟨min (v (ix1 e)).toInt.toNat (100000 - 1), by omega⟩ k := by
  rw [rows_operandIdx]
  refine congrArg (fun m => ix2 m k) (Fin.ext ?_)
  show min (broadcastInDim (⟨2, ![1700000, 1]⟩ : Shape) ![0] hbE v (ix2 e 0)).toInt.toNat (100000 - 1) = _
  rw [bcE_apply]

/-! ## The scatter's result index -/

/-- An update element of the row scatter lands at node row `r`, column `c` only if the edge's scatter index, read
    signed, is `r`, and the update's column is `c`. -/
theorem addRows_resultIdx_some {w : Nat} (wfS) (idx : IVec (⟨2, ![1700000, 1]⟩ : Shape) w) (e : Fin 1700000) (k : Fin 128)
    (r : Fin 100000) (c : Fin 128) (h : (addRowsDims wfS).resultIdx? (ix2 e k) idx = some (ix2 r c)) :
    (idx (ix2 e 0)).toInt = (r.val : Int) ∧ k = c := by
  have hs0 : (addRowsDims wfS).start (ix2 e k) idx 0 = (idx (ix2 e 0)).toInt := by
    unfold ScatterDims.start
    rw [dif_pos (show (0 : Fin 2) ∈ (addRowsDims wfS).scatterDimsToOperandDims from List.mem_singleton.mpr rfl)]
    have hsi : (addRowsDims wfS).siIdx (ix2 e k) ⟨List.idxOf (0 : Fin 2) (addRowsDims wfS).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (addRowsDims wfS).window (ix2 e k) 0 = 0 := by
    unfold ScatterDims.window
    rw [dif_neg (show (0 : Fin 2) ∉ (⟨2, ![100000, 128]⟩ : Shape).kept ([0] : List (Fin 2)) by decide)]
  have hs1 : (addRowsDims wfS).start (ix2 e k) idx 1 = 0 := by
    unfold ScatterDims.start
    rw [dif_neg (show (1 : Fin 2) ∉ ([0] : List (Fin 2)) by decide)]
  have hw1 : (addRowsDims wfS).window (ix2 e k) 1 = k.val := by
    unfold ScatterDims.window
    rw [dif_pos (show (1 : Fin 2) ∈ (⟨2, ![100000, 128]⟩ : Shape).kept ([0] : List (Fin 2)) by decide)]
    rfl
  unfold ScatterDims.resultIdx? at h
  split at h
  · have h' := Option.some.inj h
    have h0 := congrArg Fin.val (congrFun h' 0)
    have h1 := congrArg Fin.val (congrFun h' 1)
    rename_i hall
    have ha0 := hall 0
    simp only [hs0, hw0] at h0 ha0
    simp only [hs1, hw1] at h1
    constructor
    · change ((idx (ix2 e 0)).toInt + ((0 : Nat) : Int)).toNat = r.val at h0
      omega
    · change ((0 : Int) + (k.val : Int)).toNat = c.val at h1
      exact Fin.ext (by omega)
  · exact absurd h (by simp)

/-! ## Reading the operations at an index, and the algebra on the extended reals -/

/-- A gather read at a result index is the operand at the operand index. -/
theorem gather_apply {α : Type} {s si t : Shape} {w : Nat} (d : GatherDims s si t) (x : s.Idx → α) (idx : IVec si w) (j : t.Idx) :
    Host.gather d x idx j = x (d.operandIdx j idx) := rfl

/-- The accumulating scatter read at an operand index: the operand there plus the sum of the updates landing there. -/
theorem scatterAdd_apply {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-- A finite sum times a non-negative factor that is not +∞ is the sum of the products. -/
theorem sum_mul_of_nonneg_of_ne_top {ι : Type} (S : Finset ι) (f : ι → EReal) {c : EReal} (h0 : 0 ≤ c) (ht : c ≠ ⊤) :
    (∑ j ∈ S, f j) * c = ∑ j ∈ S, f j * c := by
  classical
  induction S using Finset.induction_on with
  | empty => simp
  | insert a S ha ih =>
    rw [Finset.sum_insert ha, Finset.sum_insert ha, EReal.right_distrib_of_nonneg_of_ne_top h0 ht, ih]

/-- The normalisation leaves a start index that is not negative as a signed word unchanged. -/
theorem norm_of_nonneg (hb0 : (⟨0, ![]⟩ : Shape).BroadcastsInDim (⟨1, ![1700000]⟩ : Shape) ![])
    (v : IVec (⟨1, ![1700000]⟩ : Shape) 32) (e : Fin 1700000) (h : 0 ≤ (v (ix1 e)).toInt) :
    norm hb0 v (ix1 e) = v (ix1 e) := by
  show Scalar.select (IntOp.cmpi .slt (v (ix1 e)) 0#32) (IntOp.addi (v (ix1 e)) 100000#32) (v (ix1 e)) = v (ix1 e)
  have hc : IntOp.cmpi .slt (v (ix1 e)) 0#32 = 0#1 := by
    show BitVec.ofBool ((v (ix1 e)).slt 0#32) = 0#1
    have hs : (v (ix1 e)).slt 0#32 = false := by
      rw [BitVec.slt]
      simp only [BitVec.toInt_zero, decide_eq_false_iff_not, not_lt]
      exact h
    rw [hs]; rfl
  rw [hc, select_zero]

/-- Two sums over the same index set with equal terms on it stay equal after adding the same value in front. -/
theorem add_sum_congr {ι : Type} (S : Finset ι) (a : EReal) (f g : ι → EReal) (h : ∀ j ∈ S, f j = g j) :
    a + ∑ j ∈ S, f j = a + ∑ j ∈ S, g j := by
  rw [Finset.sum_congr rfl h]

/-! ## The identity -/

/-- Scaling the scattered rows by the per-node factor afterwards is scattering the rows already scaled by both ends'
    factors: at node row `r` every update that lands there comes from an edge whose destination is `r`, so the destination's
    factor is the node's own, and the factor, being non-negative and not +∞, distributes over the sum. -/
theorem middle
    (wfG : GatherDims.WF (⟨2, ![100000, 128]⟩ : Shape) (⟨2, ![1700000, 1]⟩ : Shape) (⟨2, ![1700000, 128]⟩ : Shape) [1] [0] [] [0] [] 1 ![1, 128])
    (wfg : GatherDims.WF (⟨1, ![100000]⟩ : Shape) (⟨2, ![1700000, 1]⟩ : Shape) (⟨1, ![1700000]⟩ : Shape) [] [0] [] [0] [] 1 ![1])
    (wfS : ScatterDims.WF (⟨2, ![100000, 128]⟩ : Shape) (⟨2, ![1700000, 1]⟩ : Shape) (⟨2, ![1700000, 128]⟩ : Shape) [1] [0] [0] 1)
    (hbE : (⟨1, ![1700000]⟩ : Shape).BroadcastsInDim (⟨2, ![1700000, 1]⟩ : Shape) ![0])
    (hb0 : (⟨0, ![]⟩ : Shape).BroadcastsInDim (⟨1, ![1700000]⟩ : Shape) ![])
    (hbE2 : (⟨2, ![1700000, 1]⟩ : Shape).BroadcastsInDim (⟨2, ![1700000, 128]⟩ : Shape) ![0, 1])
    (hbn : (⟨1, ![100000]⟩ : Shape).BroadcastsInDim (⟨2, ![100000, 1]⟩ : Shape) ![0])
    (hbn2 : (⟨2, ![100000, 1]⟩ : Shape).BroadcastsInDim (⟨2, ![100000, 128]⟩ : Shape) ![0, 1])
    (z h : (⟨2, ![100000, 128]⟩ : Shape).Idx → EReal) (dinv : (⟨1, ![100000]⟩ : Shape).Idx → EReal)
    (hd : ∀ i, 0 ≤ dinv i ∧ dinv i ≠ ⊤) (src dst : IVec (⟨1, ![1700000]⟩ : Shape) 32) :
    mulf (F := Ideal) (φ := .f32)
        (Host.scatterAdd (F := Ideal) (φ := .f32) (addRowsDims wfS) z (broadcastInDim (⟨2, ![1700000, 1]⟩ : Shape) ![0] hbE dst)
          (Host.gather (rowsDims wfG) (fun p => h p * dinv (ix1 (p 0)))
            (broadcastInDim (⟨2, ![1700000, 1]⟩ : Shape) ![0] hbE (norm hb0 src))))
        (broadcastInDim (⟨2, ![100000, 128]⟩ : Shape) ![0, 1] hbn2 (broadcastInDim (⟨2, ![100000, 1]⟩ : Shape) ![0] hbn dinv))
      = Host.scatterAdd (F := Ideal) (φ := .f32) (addRowsDims wfS)
          (mulf (F := Ideal) (φ := .f32) z
            (broadcastInDim (⟨2, ![100000, 128]⟩ : Shape) ![0, 1] hbn2 (broadcastInDim (⟨2, ![100000, 1]⟩ : Shape) ![0] hbn dinv)))
          (broadcastInDim (⟨2, ![1700000, 1]⟩ : Shape) ![0] hbE dst)
          (mulf (F := Ideal) (φ := .f32)
            (Host.gather (rowsDims wfG) h (broadcastInDim (⟨2, ![1700000, 1]⟩ : Shape) ![0] hbE (norm hb0 src)))
            (broadcastInDim (⟨2, ![1700000, 128]⟩ : Shape) ![0, 1] hbE2 (broadcastInDim (⟨2, ![1700000, 1]⟩ : Shape) ![0] hbE
              (mulf (F := Ideal) (φ := .f32)
                (Host.gather (entryDims wfg) dinv (broadcastInDim (⟨2, ![1700000, 1]⟩ : Shape) ![0] hbE (norm hb0 src)))
                (Host.gather (entryDims wfg) dinv (broadcastInDim (⟨2, ![1700000, 1]⟩ : Shape) ![0] hbE (norm hb0 dst))))))) := by
  funext i
  obtain ⟨r, c, rfl⟩ : ∃ r c, i = ix2 r c := ⟨i 0, i 1, eq_ix2 i⟩
  have hc := hd (ix1 r)
  rw [mulf_apply, scatterAdd_apply, scatterAdd_apply, mulf_apply, bcn_apply,
    EReal.right_distrib_of_nonneg_of_ne_top hc.1 hc.2, sum_mul_of_nonneg_of_ne_top _ _ hc.1 hc.2]
  refine add_sum_congr _ _ _ _ fun j hj => ?_
  obtain ⟨e, k, rfl⟩ : ∃ e k, j = ix2 e k := ⟨j 0, j 1, eq_ix2 j⟩
  obtain ⟨hdst, rfl⟩ := addRows_resultIdx_some wfS _ e k r c (Finset.mem_filter.mp hj).2
  rw [bcE_apply] at hdst
  have hnn : 0 ≤ (dst (ix1 e)).toInt := by omega
  have hr : (⟨min (norm hb0 dst (ix1 e)).toInt.toNat (100000 - 1), by omega⟩ : Fin 100000) = r := by
    refine Fin.ext ?_
    show min (norm hb0 dst (ix1 e)).toInt.toNat (100000 - 1) = r.val
    rw [norm_of_nonneg hb0 dst e hnn, hdst]
    have := r.isLt
    omega
  rw [mulf_apply, bcE2_apply, bcE_apply, mulf_apply, gather_apply, gather_apply, gather_apply, gather_apply,
    rows_operandIdx_bc, entry_operandIdx_bc, entry_operandIdx_bc, hr]
  exact mul_assoc _ _ _

/-- The all-zero start array times anything is the all-zero start array. -/
theorem zeros_mulf (hbz : (⟨0, ![]⟩ : Shape).BroadcastsInDim (⟨2, ![100000, 128]⟩ : Shape) ![])
    (b : (⟨2, ![100000, 128]⟩ : Shape).Idx → EReal) :
    mulf (F := Ideal) (φ := .f32)
        (broadcastInDim (⟨2, ![100000, 128]⟩ : Shape) ![] hbz (constant (F := Ideal) (⟨0, ![]⟩ : Shape) .f32 0x00000000#32)) b
      = broadcastInDim (⟨2, ![100000, 128]⟩ : Shape) ![] hbz (constant (F := Ideal) (⟨0, ![]⟩ : Shape) .f32 0x00000000#32) := by
  funext i
  show Ideal.ofBits .f32 0x00000000#32 * b i = Ideal.ofBits .f32 0x00000000#32
  rw [Ideal.ofBits_zero_f32, zero_mul]

/-- The identity from the all-zero start array, as the programs have it: the start array is the same on both sides. -/
theorem middle_zero
    (wfG : GatherDims.WF (⟨2, ![100000, 128]⟩ : Shape) (⟨2, ![1700000, 1]⟩ : Shape) (⟨2, ![1700000, 128]⟩ : Shape) [1] [0] [] [0] [] 1 ![1, 128])
    (wfg : GatherDims.WF (⟨1, ![100000]⟩ : Shape) (⟨2, ![1700000, 1]⟩ : Shape) (⟨1, ![1700000]⟩ : Shape) [] [0] [] [0] [] 1 ![1])
    (wfS : ScatterDims.WF (⟨2, ![100000, 128]⟩ : Shape) (⟨2, ![1700000, 1]⟩ : Shape) (⟨2, ![1700000, 128]⟩ : Shape) [1] [0] [0] 1)
    (hbE : (⟨1, ![1700000]⟩ : Shape).BroadcastsInDim (⟨2, ![1700000, 1]⟩ : Shape) ![0])
    (hb0 : (⟨0, ![]⟩ : Shape).BroadcastsInDim (⟨1, ![1700000]⟩ : Shape) ![])
    (hbE2 : (⟨2, ![1700000, 1]⟩ : Shape).BroadcastsInDim (⟨2, ![1700000, 128]⟩ : Shape) ![0, 1])
    (hbn : (⟨1, ![100000]⟩ : Shape).BroadcastsInDim (⟨2, ![100000, 1]⟩ : Shape) ![0])
    (hbn2 : (⟨2, ![100000, 1]⟩ : Shape).BroadcastsInDim (⟨2, ![100000, 128]⟩ : Shape) ![0, 1])
    (hbz : (⟨0, ![]⟩ : Shape).BroadcastsInDim (⟨2, ![100000, 128]⟩ : Shape) ![])
    (h : (⟨2, ![100000, 128]⟩ : Shape).Idx → EReal) (dinv : (⟨1, ![100000]⟩ : Shape).Idx → EReal)
    (hd : ∀ i, 0 ≤ dinv i ∧ dinv i ≠ ⊤) (src dst : IVec (⟨1, ![1700000]⟩ : Shape) 32) :
    mulf (F := Ideal) (φ := .f32)
        (Host.scatterAdd (F := Ideal) (φ := .f32) (addRowsDims wfS)
          (broadcastInDim (⟨2, ![100000, 128]⟩ : Shape) ![] hbz (constant (F := Ideal) (⟨0, ![]⟩ : Shape) .f32 0x00000000#32))
          (broadcastInDim (⟨2, ![1700000, 1]⟩ : Shape) ![0] hbE dst)
          (Host.gather (rowsDims wfG) (fun p => h p * dinv (ix1 (p 0)))
            (broadcastInDim (⟨2, ![1700000, 1]⟩ : Shape) ![0] hbE (norm hb0 src))))
        (broadcastInDim (⟨2, ![100000, 128]⟩ : Shape) ![0, 1] hbn2 (broadcastInDim (⟨2, ![100000, 1]⟩ : Shape) ![0] hbn dinv))
      = Host.scatterAdd (F := Ideal) (φ := .f32) (addRowsDims wfS)
          (broadcastInDim (⟨2, ![100000, 128]⟩ : Shape) ![] hbz (constant (F := Ideal) (⟨0, ![]⟩ : Shape) .f32 0x00000000#32))
          (broadcastInDim (⟨2, ![1700000, 1]⟩ : Shape) ![0] hbE dst)
          (mulf (F := Ideal) (φ := .f32)
            (Host.gather (rowsDims wfG) h (broadcastInDim (⟨2, ![1700000, 1]⟩ : Shape) ![0] hbE (norm hb0 src)))
            (broadcastInDim (⟨2, ![1700000, 128]⟩ : Shape) ![0, 1] hbE2 (broadcastInDim (⟨2, ![1700000, 1]⟩ : Shape) ![0] hbE
              (mulf (F := Ideal) (φ := .f32)
                (Host.gather (entryDims wfg) dinv (broadcastInDim (⟨2, ![1700000, 1]⟩ : Shape) ![0] hbE (norm hb0 src)))
                (Host.gather (entryDims wfg) dinv (broadcastInDim (⟨2, ![1700000, 1]⟩ : Shape) ![0] hbE (norm hb0 dst))))))) := by
  refine (middle wfG wfg wfS hbE hb0 hbE2 hbn hbn2 _ h dinv hd src dst).trans ?_
  rw [zeros_mulf]

end Cert.Gcn

end
-- ==== Proof.Bridge.lean ====
/-
  The bridge between the two programs' middle stages. The kernel's host code scales the feature rows by the per-node
  factor before the rows are gathered and summed into their destinations, and scales the sums by the factor again
  afterwards; the reference gathers the unscaled rows, scales each edge's row by the product of its two ends' factors,
  and sums. The two programs name the same index lists, the same factor and the same dimension records, each under its
  own abbreviations, so the kernel's middle stage applied to the pre-scaled feature product is the reference's
  aggregate of the feature product: the scaling identity for the scatter-add, with the bias row added on both sides.
-/
import proofs.«135299_j19928648253615_1_alg».proof.Proof.KHost
import proofs.«135299_j19928648253615_1_alg».proof.Proof.RefValue
import proofs.«135299_j19928648253615_1_alg».proof.Proof.Bounds
import proofs.«135299_j19928648253615_1_alg».proof.Proof.Middle

noncomputable section

namespace Cert.Bridge

open Idealize.ShloMosaic Idealize.ShloMosaic.ValueIdx

/-! ## The two programs' shared pieces are the same -/

/-- The source lists agree. -/
theorem srcIdx_eq (ei : IVec Cert.KernelIdeal.S2x1600000 32) : Cert.ReferenceIdeal.RefValue.srcIdx ei = Cert.KernelIdeal.KHost.srcIdx ei := rfl
/-- The destination lists agree. -/
theorem dstIdx_eq (ei : IVec Cert.KernelIdeal.S2x1600000 32) : Cert.ReferenceIdeal.RefValue.dstIdx ei = Cert.KernelIdeal.KHost.dstIdx ei := rfl
/-- The index normalisations agree. -/
theorem norm_eq (v : IVec Cert.KernelIdeal.S1700000 32) : Cert.ReferenceIdeal.RefValue.norm v = Cert.KernelIdeal.KHost.wrap v := rfl
/-- The degree vectors agree. -/
theorem deg_eq (ei : IVec Cert.KernelIdeal.S2x1600000 32) : Cert.ReferenceIdeal.RefValue.deg ei = Cert.KernelIdeal.KHost.deg (Cert.KernelIdeal.KHost.dstIdx ei) := rfl
/-- The scaling vectors agree. -/
theorem dinv_eq (ei : IVec Cert.KernelIdeal.S2x1600000 32) : Cert.ReferenceIdeal.RefValue.dinv ei = Cert.KernelIdeal.KHost.dinv (Cert.KernelIdeal.KHost.dstIdx ei) := rfl

/-- The kernel's scaling vector is non-negative and not +∞ at every node. -/
theorem dinv_bounds (ei : IVec Cert.KernelIdeal.S2x1600000 32) (i : Cert.KernelIdeal.S100000.Idx) :
    0 ≤ Cert.KernelIdeal.KHost.dinv (Cert.KernelIdeal.KHost.dstIdx ei) i ∧ Cert.KernelIdeal.KHost.dinv (Cert.KernelIdeal.KHost.dstIdx ei) i ≠ ⊤ :=
  Cert.Gcn.invSqrt_bounds (Cert.KernelIdeal.KHost.deg (Cert.KernelIdeal.KHost.dstIdx ei)) Cert.KernelIdeal.Gen.bcast_S_S100000 i

/-! ## The middle stages agree -/

/-- The kernel's middle stage, applied to the feature product with row i already scaled by the factor of node i, is the
    reference's aggregate of the feature product. -/
theorem mid_eq_agg (x : FVec Ideal Cert.KernelIdeal.S100000x256 .f32) (w : FVec Ideal Cert.KernelIdeal.S256x128 .f32) (ei : IVec Cert.KernelIdeal.S2x1600000 32) (b1 : FVec Ideal Cert.KernelIdeal.S128 .f32) :
    Cert.KernelIdeal.KHost.mid (fun p => Cert.Gcn.feat x w p * Cert.KernelIdeal.KHost.dinv (Cert.KernelIdeal.KHost.dstIdx ei) (ix1 (p 0))) (Cert.KernelIdeal.KHost.srcIdx ei) (Cert.KernelIdeal.KHost.dstIdx ei) (Cert.KernelIdeal.KHost.dinv (Cert.KernelIdeal.KHost.dstIdx ei)) b1
      = Cert.ReferenceIdeal.RefValue.agg (Cert.Gcn.feat x w) ei b1 := by
  unfold Cert.KernelIdeal.KHost.mid Cert.ReferenceIdeal.RefValue.agg
  refine congrArg₂ addf ?_ rfl
  exact Cert.Gcn.middle_zero Cert.KernelIdeal.Gen.gather_S100000x128_S1700000x1_S1700000x128_1_0_n_n_0_1_1128_wf
    Cert.ReferenceIdeal.Gen.gather_S100000_S1700000x1_S1700000_n_0_n_n_0_1_1_wf
    Cert.KernelIdeal.Gen.scatter_S100000x128_S1700000x1_S1700000x128_1_0_0_1_wf
    Cert.KernelIdeal.Gen.bcast_S1700000_S1700000x1_0 Cert.KernelIdeal.Gen.bcast_S_S1700000 Cert.ReferenceIdeal.Gen.bcast_S1700000x1_S1700000x128_0_1
    Cert.KernelIdeal.Gen.bcast_S100000_S100000x1_0 Cert.KernelIdeal.Gen.bcast_S100000x1_S100000x128_0_1 Cert.KernelIdeal.Gen.bcast_S_S100000x128
    (Cert.Gcn.feat x w) (Cert.KernelIdeal.KHost.dinv (Cert.KernelIdeal.KHost.dstIdx ei)) (dinv_bounds ei) (Cert.KernelIdeal.KHost.srcIdx ei) (Cert.KernelIdeal.KHost.dstIdx ei)

end Cert.Bridge

end
-- ==== Proof.lean ====
/-
  The claim: the kernel, its idealization and the idealized reference each run to the end without a fault and leave
  their argument arrays unchanged; the idealization rewrote nothing; and at the ideal instance, from memories that agree
  on the arguments, the idealized kernel and the idealized reference end with equal results.

  The layer. With n = 100000 nodes, the edge list is the given 1600000 edges followed by one self-loop per node; deg[i]
  counts the edges into i and dinv[i] is deg[i]^(-1/2) where deg[i] > 0, else 0 — a non-negative real in every case,
  whatever the degree. With h = x · W1, the reference computes, for node i and feature k,
      out[i, k] = Σ over the edges e into i of h[src e, k] · (dinv[src e] · dinv[dst e])  + b1[k],
  where on every edge that the sum over destination i keeps, the destination read back as an array index is i itself.
  The kernel first forms g[j, k] = h[j, k] · dinv[j] in a tiled region, then on the host
      out[i, k] = (Σ over the edges e into i of g[src e, k]) · dinv[i] + b1[k].
  The two agree because a product with a non-negative real distributes over a finite sum of extended reals, and the
  product is associative: no finiteness of the inputs is used. Both then apply the same output stage
  out · Wfc + bfc, the kernel block by block in a second tiled region, the reference as one matrix product.
  A change of float format is the identity on extended reals, and a tiled matrix product into a zero accumulator is
  the same sum of products as the whole matrix product.
-/
import proofs.«135299_j19928648253615_1_alg».proof.Defs
import proofs.«135299_j19928648253615_1_alg».proof.Proof.Gen.Kernel
import proofs.«135299_j19928648253615_1_alg».proof.Proof.Gen.Kernel.Frame
import proofs.«135299_j19928648253615_1_alg».proof.Proof.Gen.KernelIdeal
import proofs.«135299_j19928648253615_1_alg».proof.Proof.Gen.KernelIdeal.Frame
import proofs.«135299_j19928648253615_1_alg».proof.Proof.Gen.ReferenceIdeal
import proofs.«135299_j19928648253615_1_alg».proof.Proof.Gen.Pre_finite_inputs
import proofs.«135299_j19928648253615_1_alg».proof.Proof.KValue
import proofs.«135299_j19928648253615_1_alg».proof.Proof.RefRun
import proofs.«135299_j19928648253615_1_alg».proof.Proof.RefValue
import proofs.«135299_j19928648253615_1_alg».proof.Proof.Bridge
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- Both runs end with the output stage applied to the same array: the kernel's middle stage equals the reference's
    aggregation of the same feature product. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.result_eq, (hagree c).1, (hagree c).2.1, (hagree c).2.2.1, (hagree c).2.2.2.1,
    (hagree c).2.2.2.2.1, (hagree c).2.2.2.2.2]
  unfold Cert.KernelIdeal.KValue.result Cert.KernelIdeal.KValue.scaled
  exact congrArg (fun a => Cert.Gcn.classify a _ _) (Cert.Bridge.mid_eq_agg _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
